-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x2048 : Shape := ⟨2, ![4096, 2048]⟩
abbrev S2048x2048 : Shape := ⟨2, ![2048, 2048]⟩
abbrev S2048x1 : Shape := ⟨2, ![2048, 1]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x1 : S_.BroadcastsInDim S2048x1 (![] : Fin 0 → Fin S2048x1.rank)
  reducesTo_S2048x1_S_d0_1 : S2048x1.ReducesTo [0, 1] S_

variable [Facts]

def fn_part5 {F : FTy → Type} [FloatOps F] (main_arg18 : FVec F S2048x1 .f32) (main_v83 : IVec S_ 1) (main_v84 : FVec F S2048x1 .f32) (main_cst_32 : FVec F S_ .f32) : IVec S_ 1 :=
  let main_v85 : FVec F S2048x1 .f32 := broadcastInDim S2048x1 ![] bcast_S_S2048x1 main_cst_32
  let main_v86 : IVec S2048x1 1 := cmpf .olt main_v84 main_v85
  let main_c_33 : IVec S_ 1 := constantI S_ 1 1#1
  let main_v87 : IVec S_ 1 := (fun x v => Host.reduce IntOp.andi x v reducesTo_S2048x1_S_d0_1 h_S_) main_v86 main_c_33
  let main_v88 : IVec S_ 1 := andi main_v83 main_v87
  let main_v89 : FVec F S2048x1 .f32 := Host.absf main_arg18
  let main_cst_34 : FVec F S_ .f32 := constant S_ .f32 0x7F800000#32
  let main_v90 : FVec F S2048x1 .f32 := broadcastInDim S2048x1 ![] bcast_S_S2048x1 main_cst_34
  let main_v91 : IVec S2048x1 1 := cmpf .olt main_v89 main_v90
  let main_c_35 : IVec S_ 1 := constantI S_ 1 1#1
  let main_v92 : IVec S_ 1 := (fun x v => Host.reduce IntOp.andi x v reducesTo_S2048x1_S_d0_1 h_S_) main_v91 main_c_35
  let main_v93 : IVec S_ 1 := andi main_v88 main_v92
  main_v93

def fn_part4 {F : FTy → Type} [FloatOps F] (main_arg14 : FVec F S2048x1 .f32) (main_arg15 : FVec F S2048x1 .f32) (main_arg16 : FVec F S2048x1 .f32) (main_arg17 : FVec F S2048x1 .f32) (main_arg18 : FVec F S2048x1 .f32) (main_v63 : IVec S_ 1) (main_v67 : IVec S_ 1) : IVec S_ 1 :=
  let main_v68 : IVec S_ 1 := andi main_v63 main_v67
  let main_v69 : FVec F S2048x1 .f32 := Host.absf main_arg14
  let main_cst_26 : FVec F S_ .f32 := constant S_ .f32 0x7F800000#32
  let main_v70 : FVec F S2048x1 .f32 := broadcastInDim S2048x1 ![] bcast_S_S2048x1 main_cst_26
  let main_v71 : IVec S2048x1 1 := cmpf .olt main_v69 main_v70
  let main_c_27 : IVec S_ 1 := constantI S_ 1 1#1
  let main_v72 : IVec S_ 1 := (fun x v => Host.reduce IntOp.andi x v reducesTo_S2048x1_S_d0_1 h_S_) main_v71 main_c_27
  let main_v73 : IVec S_ 1 := andi main_v68 main_v72
  let main_v74 : FVec F S2048x1 .f32 := Host.absf main_arg15
  let main_cst_28 : FVec F S_ .f32 := constant S_ .f32 0x7F800000#32
  let main_v75 : FVec F S2048x1 .f32 := broadcastInDim S2048x1 ![] bcast_S_S2048x1 main_cst_28
  let main_v76 : IVec S2048x1 1 := cmpf .olt main_v74 main_v75
  let main_c_29 : IVec S_ 1 := constantI S_ 1 1#1
  let main_v77 : IVec S_ 1 := (fun x v => Host.reduce IntOp.andi x v reducesTo_S2048x1_S_d0_1 h_S_) main_v76 main_c_29
  let main_v78 : IVec S_ 1 := andi main_v73 main_v77
  let main_v79 : FVec F S2048x1 .f32 := Host.absf main_arg16
  let main_cst_30 : FVec F S_ .f32 := constant S_ .f32 0x7F800000#32
  let main_v80 : FVec F S2048x1 .f32 := broadcastInDim S2048x1 ![] bcast_S_S2048x1 main_cst_30
  let main_v81 : IVec S2048x1 1 := cmpf .olt main_v79 main_v80
  let main_c_31 : IVec S_ 1 := constantI S_ 1 1#1
  let main_v82 : IVec S_ 1 := (fun x v => Host.reduce IntOp.andi x v reducesTo_S2048x1_S_d0_1 h_S_) main_v81 main_c_31
  let main_v83 : IVec S_ 1 := andi main_v78 main_v82
  let main_v84 : FVec F S2048x1 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2048x1 .f32) (main_arg12 : FVec F S2048x1 .f32) (main_arg13 : FVec F S2048x1 .f32) (main_arg14 : FVec F S2048x1 .f32) (main_arg15 : FVec F S2048x1 .f32) (main_arg16 : FVec F S2048x1 .f32) (main_arg17 : FVec F S2048x1 .f32) (main_arg18 : FVec F S2048x1 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048x1 .f32 := Host.absf main_arg11
  let main_cst_20 : FVec F S_ .f32 := constant S_ .f32 0x7F800000#32
  let main_v55 : FVec F S2048x1 .f32 := broadcastInDim S2048x1 ![] bcast_S_S2048x1 main_cst_20
  let main_v56 : IVec S2048x1 1 := cmpf .olt main_v54 main_v55
  let main_c_21 : IVec S_ 1 := constantI S_ 1 1#1
  let main_v57 : IVec S_ 1 := (fun x v => Host.reduce IntOp.andi x v reducesTo_S2048x1_S_d0_1 h_S_) main_v56 main_c_21
  let main_v58 : IVec S_ 1 := andi main_v53 main_v57
  let main_v59 : FVec F S2048x1 .f32 := Host.absf main_arg12
  let main_cst_22 : FVec F S_ .f32 := constant S_ .f32 0x7F800000#32
  let main_v60 : FVec F S2048x1 .f32 := broadcastInDim S2048x1 ![] bcast_S_S2048x1 main_cst_22
  let main_v61 : IVec S2048x1 1 := cmpf .olt main_v59 main_v60
  let main_c_23 : IVec S_ 1 := constantI S_ 1 1#1
  let main_v62 : IVec S_ 1 := (fun x v => Host.reduce IntOp.andi x v reducesTo_S2048x1_S_d0_1 h_S_) main_v61 main_c_23
  let main_v63 : IVec S_ 1 := andi main_v58 main_v62
  let main_v64 : FVec F S2048x1 .f32 := Host.absf main_arg13
  let main_cst_24 : FVec F S_ .f32 := constant S_ .f32 0x7F800000#32
  let main_v65 : FVec F S2048x1 .f32 := broadcastInDim S2048x1 ![] bcast_S_S2048x1 main_cst_24
  let main_v66 : IVec S2048x1 1 := cmpf .olt main_v64 main_v65
  let main_c_25 : IVec S_ 1 := constantI S_ 1 1#1
  let main_v67 : IVec S_ 1 := (fun x v => Host.reduce IntOp.andi x v reducesTo_S2048x1_S_d0_1 h_S_) main_v66 main_c_25
  fn_part4 (F := F) main_arg14 main_arg15 main_arg16 main_arg17 main_arg18 main_v63 main_v67

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S2048x1 .f32) (main_arg12 : FVec F S2048x1 .f32) (main_arg13 : FVec F S2048x1 .f32) (main_arg14 : FVec F S2048x1 .f32) (main_arg15 : FVec F S2048x1 .f32) (main_arg16 : FVec F S2048x1 .f32) (main_arg17 : FVec F S2048x1 .f32) (main_arg18 : FVec F S2048x1 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_arg15 main_arg16 main_arg17 main_arg18 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048x1 .f32) (main_arg12 : FVec F S2048x1 .f32) (main_arg13 : FVec F S2048x1 .f32) (main_arg14 : FVec F S2048x1 .f32) (main_arg15 : FVec F S2048x1 .f32) (main_arg16 : FVec F S2048x1 .f32) (main_arg17 : FVec F S2048x1 .f32) (main_arg18 : FVec F S2048x1 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S2048x4096 .f32) (main_arg1 : FVec F S4096x2048 .f32) (main_arg2 : FVec F S4096x2048 .f32) (main_arg3 : FVec F S2048x2048 .f32) (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048x1 .f32) (main_arg12 : FVec F S2048x1 .f32) (main_arg13 : FVec F S2048x1 .f32) (main_arg14 : FVec F S2048x1 .f32) (main_arg15 : FVec F S2048x1 .f32) (main_arg16 : FVec F S2048x1 .f32) (main_arg17 : FVec F S2048x1 .f32) (main_arg18 : FVec F S2048x1 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S2048x4096 : Shape := ⟨2, ![2048, 4096]⟩
abbrev S4096x2048 : Shape := ⟨2, ![4096, 2048]⟩
abbrev S2048x2048 : Shape := ⟨2, ![2048, 2048]⟩
abbrev S2048x1 : Shape := ⟨2, ![2048, 1]⟩
abbrev S2048 : Shape := ⟨1, ![2048]⟩
abbrev S1x2048 : Shape := ⟨2, ![1, 2048]⟩
abbrev S2048x512 : Shape := ⟨2, ![2048, 512]⟩
abbrev S512x2048 : Shape := ⟨2, ![512, 2048]⟩
abbrev S512x256 : Shape := ⟨2, ![512, 256]⟩
abbrev S256x2048 : Shape := ⟨2, ![256, 2048]⟩
abbrev S1x256 : Shape := ⟨2, ![1, 256]⟩

abbrev nBuf : Space → Nat
  | .hbm => 47
  | .vmem => 34
  | .smem => 0
  | _ => 0

abbrev bufTy : (tb : Table) → Fin (tcTables nBuf tb) → BufTy
  | .hbm, ⟨0, _⟩ => ⟨S2048x4096, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x4096, .bf16⟩
  | .hbm, ⟨20, _⟩ => ⟨S4096x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S2048x2048, .bf16⟩
  | .hbm, ⟨26, _⟩ => ⟨S2048x2048, .bf16⟩
  | .hbm, ⟨27, _⟩ => ⟨S2048x2048, .bf16⟩
  | .hbm, ⟨28, _⟩ => ⟨S2048x2048, .bf16⟩
  | .hbm, ⟨29, _⟩ => ⟨S2048, .f32⟩
  | .hbm, ⟨30, _⟩ => ⟨S2048, .f32⟩
  | .hbm, ⟨31, _⟩ => ⟨S2048, .f32⟩
  | .hbm, ⟨32, _⟩ => ⟨S1x2048, .f32⟩
  | .hbm, ⟨33, _⟩ => ⟨S2048, .f32⟩
  | .hbm, ⟨34, _⟩ => ⟨S2048, .f32⟩
  | .hbm, ⟨35, _⟩ => ⟨S2048, .f32⟩
  | .hbm, ⟨36, _⟩ => ⟨S1x2048, .f32⟩
  | .hbm, ⟨37, _⟩ => ⟨S2048, .f32⟩
  | .hbm, ⟨38, _⟩ => ⟨S2048, .f32⟩
  | .hbm, ⟨39, _⟩ => ⟨S2048, .f32⟩
  | .hbm, ⟨40, _⟩ => ⟨S1x2048, .f32⟩
  | .hbm, ⟨41, _⟩ => ⟨S2048, .f32⟩
  | .hbm, ⟨42, _⟩ => ⟨S2048, .f32⟩
  | .hbm, ⟨43, _⟩ => ⟨S2048, .f32⟩
  | .hbm, ⟨44, _⟩ => ⟨S1x2048, .f32⟩
  | .hbm, ⟨45, _⟩ => ⟨S4096x2048, .f32⟩
  | .hbm, ⟨46, _⟩ => ⟨S4096x2048, .f32⟩
  | .local _ .vmem, ⟨0, _⟩ => ⟨S2048x512, .bf16⟩
  | .local _ .vmem, ⟨1, _⟩ => ⟨S2048x512, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26_0 : Ref sig .tc := ⟨.hbm, 45, rfl⟩
abbrev main_v26_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  bitsLt_bf16_f32 : FTy.bits .bf16 < FTy.bits .f32
  shapeCasts_S2048x1_S2048 : S2048x1.ShapeCasts S2048
  shapeCasts_S2048_S1x2048 : S2048.ShapeCasts S1x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S2048x512_S256x2048_S512x256_0_1_1_0_n_n_wf : DotDims.WF S2048x512 S256x2048 S512x256 [0] [1] [1] [0] [] []
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x4096.size a
  hwx0_0 : ∀ i : grid0.Coords, EltTy.bits .bf16 = 32 ∨ (Rect.block (s := S2048x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S2048x2048.size a
  hwx0_4 : ∀ i : grid0.Coords, EltTy.bits .bf16 = 32 ∨ (Rect.block (s := S2048x2048) S256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S2048x2048.size a
  hwx0_5 : ∀ i : grid0.Coords, EltTy.bits .bf16 = 32 ∨ (Rect.block (s := S2048x2048) S256x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .bf16 = 32 ∨ (Rect.block (s := S2048x2048) S256x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .bf16 = 32 ∨ (Rect.block (s := S2048x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S2048x2048.size a
  hwx0_8 : ∀ i : grid0.Coords, EltTy.bits .bf16 = 32 ∨ (Rect.block (s := S2048x2048) S256x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .bf16 = 32 ∨ (Rect.block (s := S2048x2048) S256x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S2048x2048.size a
  hwx0_10 : ∀ i : grid0.Coords, EltTy.bits .bf16 = 32 ∨ (Rect.block (s := S2048x2048) S256x2048.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S4096x2048.size a
  hwx0_15 : ∀ i : grid0.Coords, EltTy.bits .f32 = 32 ∨ (Rect.block (s := S4096x2048) S512x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S4096x2048.size a
  hwx0_16 : ∀ i : grid0.Coords, EltTy.bits .f32 = 32 ∨ (Rect.block (s := S4096x2048) S512x256.size (cc0_transform_16 i) (hinb0_16 i)).WholeWords (EltTy.packing .f32)

variable [Facts₀]

def dot_S2048x512_S256x2048_S512x256_0_1_1_0_n_n : DotDims S2048x512 S256x2048 S512x256 where
  lhsContracting := [0]
  rhsContracting := [1]
  lhsNonContracting := [1]
  rhsNonContracting := [0]
  lhsBatch := []
  rhsBatch := []
  wf := dot_S2048x512_S256x2048_S512x256_0_1_1_0_n_n_wf
def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7) S256x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8) S256x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9) S256x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v21) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v25) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v26_0) S512x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v26_1) S512x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S4096x2048 : Shape := ⟨2, ![4096, 2048]⟩
abbrev S2048x2048 : Shape := ⟨2, ![2048, 2048]⟩
abbrev S2048x1 : Shape := ⟨2, ![2048, 1]⟩
abbrev S_ : Shape := ⟨0, ![]⟩

abbrev nBuf : Space → Nat
  | .hbm => 81
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x4096, .f32⟩
  | .hbm, ⟨20, _⟩ => ⟨S2048x4096, .f32⟩
  | .hbm, ⟨21, _⟩ => ⟨S2048x4096, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S2048x4096, .f32⟩
  | .hbm, ⟨27, _⟩ => ⟨S2048x4096, .f32⟩
  | .hbm, ⟨28, _⟩ => ⟨S2048x4096, .f32⟩
  | .hbm, ⟨29, _⟩ => ⟨S2048x4096, .f32⟩
  | .hbm, ⟨30, _⟩ => ⟨S_, .f32⟩
  | .hbm, ⟨31, _⟩ => ⟨S2048x4096, .f32⟩
  | .hbm, ⟨32, _⟩ => ⟨S2048x4096, .f32⟩
  | .hbm, ⟨33, _⟩ => ⟨S_, .f32⟩
  | .hbm, ⟨34, _⟩ => ⟨S2048x4096, .f32⟩
  | .hbm, ⟨35, _⟩ => ⟨S2048x4096, .f32⟩
  | .hbm, ⟨36, _⟩ => ⟨S2048x4096, .f32⟩
  | .hbm, ⟨37, _⟩ => ⟨S2048x4096, .f32⟩
  | .hbm, ⟨38, _⟩ => ⟨S2048x4096, .f32⟩
  | .hbm, ⟨39, _⟩ => ⟨S2048x4096, .f32⟩
  | .hbm, ⟨40, _⟩ => ⟨S2048x4096, .f32⟩
  | .hbm, ⟨41, _⟩ => ⟨S2048x4096, .f32⟩
  | .hbm, ⟨42, _⟩ => ⟨S2048x4096, .f32⟩
  | .hbm, ⟨43, _⟩ => ⟨S2048x4096, .f32⟩
  | .hbm, ⟨44, _⟩ => ⟨S2048x4096, .f32⟩
  | .hbm, ⟨45, _⟩ => ⟨S_, .f32⟩
  | .hbm, ⟨46, _⟩ => ⟨S2048x4096, .f32⟩
  | .hbm, ⟨47, _⟩ => ⟨S2048x4096, .f32⟩
  | .hbm, ⟨48, _⟩ => ⟨S_, .f32⟩
  | .hbm, ⟨49, _⟩ => ⟨S2048x4096, .f32⟩
  | .hbm, ⟨50, _⟩ => ⟨S2048x4096, .f32⟩
  | .hbm, ⟨51, _⟩ => ⟨S2048x4096, .f32⟩
  | .hbm, ⟨52, _⟩ => ⟨S2048x4096, .f32⟩
  | .hbm, ⟨53, _⟩ => ⟨S2048x4096, .f32⟩
  | .hbm, ⟨54, _⟩ => ⟨S2048x4096, .f32⟩
  | .hbm, ⟨55, _⟩ => ⟨S2048x4096, .f32⟩
  | .hbm, ⟨56, _⟩ => ⟨S2048x4096, .f32⟩
  | .hbm, ⟨57, _⟩ => ⟨S2048x4096, .f32⟩
  | .hbm, ⟨58, _⟩ => ⟨S2048x4096, .f32⟩
  | .hbm, ⟨59, _⟩ => ⟨S2048x4096, .f32⟩
  | .hbm, ⟨60, _⟩ => ⟨S2048x4096, .f32⟩
  | .hbm, ⟨61, _⟩ => ⟨S2048x4096, .f32⟩
  | .hbm, ⟨62, _⟩ => ⟨S2048x4096, .f32⟩
  | .hbm, ⟨63, _⟩ => ⟨S2048x4096, .f32⟩
  | .hbm, ⟨64, _⟩ => ⟨S2048x4096, .f32⟩
  | .hbm, ⟨65, _⟩ => ⟨S2048x4096, .f32⟩
  | .hbm, ⟨66, _⟩ => ⟨S2048x4096, .f32⟩
  | .hbm, ⟨67, _⟩ => ⟨S2048x4096, .f32⟩
  | .hbm, ⟨68, _⟩ => ⟨S_, .f32⟩
  | .hbm, ⟨69, _⟩ => ⟨S2048x4096, .f32⟩
  | .hbm, ⟨70, _⟩ => ⟨S2048x4096, .f32⟩
  | .hbm, ⟨71, _⟩ => ⟨S_, .f32⟩
  | .hbm, ⟨72, _⟩ => ⟨S2048x4096, .f32⟩
  | .hbm, ⟨73, _⟩ => ⟨S2048x4096, .f32⟩
  | .hbm, ⟨74, _⟩ => ⟨S2048x4096, .f32⟩
  | .hbm, ⟨75, _⟩ => ⟨S2048x4096, .f32⟩
  | .hbm, ⟨76, _⟩ => ⟨S2048x4096, .f32⟩
  | .hbm, ⟨77, _⟩ => ⟨S2048x4096, .f32⟩
  | .hbm, ⟨78, _⟩ => ⟨S2048x4096, .f32⟩
  | .hbm, ⟨79, _⟩ => ⟨S4096x2048, .f32⟩
  | .hbm, ⟨80, _⟩ => ⟨S4096x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_cst_0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_1 : Ref sig .tc := ⟨.hbm, 45, rfl⟩
abbrev main_v24 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]

class Facts₀ : Prop where
  transposes_S4096x2048_S2048x4096_1_0 : S4096x2048.Transposes [1, 0] S2048x4096
  bcast_S2048x1_S2048x4096_0_1 : S2048x1.BroadcastsInDim S2048x4096 (![0, 1] : Fin 2 → Fin S2048x4096.rank)
  bcast_S_S2048x4096 : S_.BroadcastsInDim S2048x4096 (![] : Fin 0 → Fin S2048x4096.rank)
  transposes_S2048x4096_S4096x2048_1_0 : S2048x4096.Transposes [1, 0] S4096x2048
  dot_S2048x2048_S2048x4096_S2048x4096_1_0_0_1_n_n_wf : DotDims.WF S2048x2048 S2048x4096 S2048x4096 [1] [0] [0] [1] [] []

variable [Facts₀]

def dot_S2048x2048_S2048x4096_S2048x4096_1_0_0_1_n_n : DotDims S2048x2048 S2048x4096 S2048x4096 where
  lhsContracting := [1]
  rhsContracting := [0]
  lhsNonContracting := [0]
  rhsNonContracting := [1]
  lhsBatch := []
  rhsBatch := []
  wf := dot_S2048x2048_S2048x4096_S2048x4096_1_0_0_1_n_n_wf

class Facts : Prop extends Facts₀ where

variable [Facts]
-- ==== Proof.LibDotColRow.lean ====
/-
  A contraction of the FIRST axis of the left matrix against the SECOND axis of the right one, read as a plain sum.

  Take operands of shapes [K, A] and [B, K] and a result of shape [A, B], with dimension numbers that say: no batch
  axes; the left operand keeps its axis 1 and the right operand its axis 0; axis 0 of the left is contracted against
  axis 1 of the right. This is the product (transpose of the left) times (transpose of the right), with neither
  transpose formed: the left matrix is stored contraction-major, the right one result-major. The contraction's own index
  set is a one-axis shape of extent K, and the sum over it of x (left index) * y (right index) at the result index
  (p, q) is  ∑ k < K, x (k, p) * y (q, k):  on its kept axis each operand reads the result's coordinate (the left one
  the row coordinate p, the right one the column coordinate q), on its contracted axis the contraction's one coordinate.

  Stated for ANY record with these dimension numbers, for any A, K, B, any contraction precision and any pair of operand
  float formats. The extended reals enter only as the type the products are taken in: nothing here uses more than the
  sum's re-indexing along a bijection, and (for the product into a zero accumulator) that the zero pattern denotes 0.
-/
import Idealize.ShloMosaic.Lib.ValueIdx
import Idealize.ShloMosaic.PureOps.Ideal.Laws

open scoped BigOperators

namespace Cert.ColRowDot

open Idealize.ShloMosaic Idealize.ShloMosaic.ValueIdx

variable {A K B : Nat} (d : DotDims ⟨2, ![K, A]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 1) the left operand's index is the result's ROW coordinate: the result's axes are the batch
    axes (none), then the left's kept axes (one: it comes first), then the right's kept axes. -/
theorem lhs_kept (hlb : d.lhsBatch = []) (hln : d.lhsNonContracting = [1])
    (j : (⟨2, ![A, B]⟩ : Shape).Idx) (k : d.contr.Idx) : (d.lhsIdx j k 1).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate. -/
theorem rhs_kept (hlb : d.lhsBatch = []) (hln : d.lhsNonContracting = [1]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products down column p of the left matrix and along row q of the right one. -/
theorem sum_eq (hlb : d.lhsBatch = []) (hln : d.lhsNonContracting = [1]) (hlc : d.lhsContracting = [0])
    (hrb : d.rhsBatch = []) (hrn : d.rhsNonContracting = [0]) (hrc : d.rhsContracting = [1])
    (hr : d.contr.rank = 1) (hs : d.contr.size ⟨0, by omega⟩ = K)
    (x : (⟨2, ![K, A]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 k p) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (d.lhsIdx_val_of_single hlc _ _).trans hk
    | ⟨1, _⟩ => exact lhs_kept d hlb hln _ _)
  have er : d.rhsIdx (ix2 p q) ((contrEquiv1 d K hr hs).symm k) = ix2 q k := funext fun a => Fin.ext (by
    match a with
    | ⟨0, _⟩ => exact rhs_kept d hlb hln hrb hrn _ _
    | ⟨1, _⟩ => exact (d.rhsIdx_val_of_single hrc _ _).trans hk)
  rw [el, er]

/-- The matrix product unit's result into the zero accumulator, at (p, q): that plain sum, for operands of any float
    formats (every float is an extended real at the ideal values, and the zero pattern denotes 0). -/
theorem matmul_zero_apply {φ₁ φ₂ : FTy} (hlb : d.lhsBatch = []) (hln : d.lhsNonContracting = [1])
    (hlc : d.lhsContracting = [0]) (hrb : d.rhsBatch = []) (hrn : d.rhsNonContracting = [0])
    (hrc : d.rhsContracting = [1]) (hr : d.contr.rank = 1) (hs : d.contr.size ⟨0, by omega⟩ = K)
    (prec : Option ContractPrecision) (x : FVec Ideal ⟨2, ![K, A]⟩ φ₁) (y : FVec Ideal ⟨2, ![B, K]⟩ φ₂)
    (p : Fin A) (q : Fin B) :
    FloatOps.matmul d prec x y (constant (F := Ideal) ⟨2, ![A, B]⟩ .f32 0x00000000#32) (ix2 p q)
      = ∑ k : Fin K, x (ix2 k p) * y (ix2 q k) :=
  (Ideal.matmul_constant_zero_apply d prec x y (ix2 p q)).trans (sum_eq d hlb hln hlc hrb hrn hrc hr hs x y p q)

end Cert.ColRowDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.Spec.lean ====
/-
  One step of an LSTM cell, entry by entry, on the extended reals.

  The data: the input x laid out [input, batch] (2048 by 4096); the hidden state h and the cell state c laid out
  [batch, hidden] (4096 by 2048); for each of the four gates (input i, forget f, candidate g, output o) an input weight
  and a hidden weight, both [hidden, input] = 2048 by 2048, and two bias columns [hidden, 1].

  At batch row p and hidden unit q a gate's PRE-ACTIVATION is
      ∑ k, x (k, p) · W (q, k)  +  ∑ k, h (p, k) · U (q, k)  +  (b (q) + b' (q)),
  the new cell state is   c' (p, q) = σ (pre_f) · c (p, q) + σ (pre_i) · tanh (pre_g),
  and the new hidden state  h' (p, q) = σ (pre_o) · tanh (c' (p, q)),
  with σ the logistic function 1 / (1 + e^(-z)) and every operation the exact one on the extended reals.

  Two spellings of the pre-activation occur. One adds the two matrix products first and then the sum of the two biases,
  with the data on the left of each product; the other adds the first bias right after the first product and the second
  bias last, with the weight on the left of each product. Addition and multiplication on the extended reals are
  commutative and associative, infinities included (no distributivity and no cancellation is involved), so the two
  spellings are one number for ALL extended-real inputs: `pre_regrouped`.
-/
import Idealize.ShloMosaic.Lib.ValueIdx
import Idealize.ShloMosaic.PureOps.Ideal

open scoped BigOperators

noncomputable section

namespace Cert.Lstm

open Idealize.ShloMosaic Idealize.ShloMosaic.ValueIdx

/-- Indices of the input, laid out [input, batch]. -/
abbrev XIdx := (⟨2, ![2048, 4096]⟩ : Shape).Idx
/-- Indices of a state array (hidden state, cell state, either result), laid out [batch, hidden]. -/
abbrev SIdx := (⟨2, ![4096, 2048]⟩ : Shape).Idx
/-- Indices of a weight matrix, laid out [hidden, input]. -/
abbrev WIdx := (⟨2, ![2048, 2048]⟩ : Shape).Idx
/-- Indices of a bias column, laid out [hidden, 1]. -/
abbrev BIdx := (⟨2, ![2048, 1]⟩ : Shape).Idx

/-- A gate's pre-activation at batch row `p` and hidden unit `q`: the input's column `p` against row `q` of the input
    weight, plus the hidden state's row `p` against row `q` of the hidden weight, plus the two biases of unit `q`. -/
def pre (x : XIdx → EReal) (h : SIdx → EReal) (W U : WIdx → EReal) (b b' : BIdx → EReal) (p : Fin 4096) (q : Fin 2048) :
    EReal :=
  (∑ k : Fin 2048, x (ix2 k p) * W (ix2 q k) + ∑ k : Fin 2048, h (ix2 p k) * U (ix2 q k))
    + (b (ix2 q (0 : Fin 1)) + b' (ix2 q (0 : Fin 1)))

/-- The other spelling — weight on the left of each product, the first bias added right after the first product, the
    second bias last — is the same number, for all extended-real entries: only commutativity and associativity of
    addition and of multiplication are used. -/
theorem pre_regrouped (x : XIdx → EReal) (h : SIdx → EReal) (W U : WIdx → EReal) (b b' : BIdx → EReal)
    (p : Fin 4096) (q : Fin 2048) :
    ((∑ k : Fin 2048, W (ix2 q k) * x (ix2 k p) + b (ix2 q (0 : Fin 1))) + ∑ k : Fin 2048, U (ix2 q k) * h (ix2 p k))
        + b' (ix2 q (0 : Fin 1))
      = pre x h W U b b' p q := by
  have e1 : ∑ k : Fin 2048, W (ix2 q k) * x (ix2 k p) = ∑ k : Fin 2048, x (ix2 k p) * W (ix2 q k) :=
    Finset.sum_congr rfl fun k _ => mul_comm _ _
  have e2 : ∑ k : Fin 2048, U (ix2 q k) * h (ix2 p k) = ∑ k : Fin 2048, h (ix2 p k) * U (ix2 q k) :=
    Finset.sum_congr rfl fun k _ => mul_comm _ _
  rw [e1, e2]
  unfold pre
  rw [add_assoc, add_add_add_comm]

/-- The new cell state at `(p, q)`: the forget gate times the old cell state plus the input gate times the candidate. -/
def cellNext (x : XIdx → EReal) (h c : SIdx → EReal) (Wi Wf Wg Ui Uf Ug : WIdx → EReal)
    (bi bi' bf bf' bg bg' : BIdx → EReal) (p : Fin 4096) (q : Fin 2048) : EReal :=
  Ideal.logistic (pre x h Wf Uf bf bf' p q) * c (ix2 p q)
    + Ideal.logistic (pre x h Wi Ui bi bi' p q) * Ideal.tanh (pre x h Wg Ug bg bg' p q)

/-- The new hidden state at `(p, q)`: the output gate times the hyperbolic tangent of the new cell state. -/
def hiddenNext (x : XIdx → EReal) (h c : SIdx → EReal) (Wi Wf Wg Wo Ui Uf Ug Uo : WIdx → EReal)
    (bi bi' bf bf' bg bg' bo bo' : BIdx → EReal) (p : Fin 4096) (q : Fin 2048) : EReal :=
  Ideal.logistic (pre x h Wo Uo bo bo' p q)
    * Ideal.tanh (cellNext x h c Wi Wf Wg Ui Uf Ug bi bi' bf bf' bg bg' p q)

/-- The new cell state as a whole [batch, hidden] array. -/
def cellArr (x : XIdx → EReal) (h c : SIdx → EReal) (Wi Wf Wg Ui Uf Ug : WIdx → EReal)
    (bi bi' bf bf' bg bg' : BIdx → EReal) : SIdx → EReal :=
  fun i => cellNext x h c Wi Wf Wg Ui Uf Ug bi bi' bf bf' bg bg' (i 0) (i 1)

/-- The new hidden state as a whole [batch, hidden] array. -/
def hiddenArr (x : XIdx → EReal) (h c : SIdx → EReal) (Wi Wf Wg Wo Ui Uf Ug Uo : WIdx → EReal)
    (bi bi' bf bf' bg bg' bo bo' : BIdx → EReal) : SIdx → EReal :=
  fun i => hiddenNext x h c Wi Wf Wg Wo Ui Uf Ug Uo bi bi' bf bf' bg bg' bo bo' (i 0) (i 1)

/-- The logistic function spelt as a quotient with the f32 pattern of one as numerator and as summand — the form a
    host program takes when `sigmoid` is expanded into negate, exponential, add and divide — is the logistic function. -/
theorem logistic_spelt (one : EReal) (h1 : one = 1) (z : EReal) :
    Ideal.div one (one + Ideal.exp (-z)) = Ideal.logistic z := by
  rw [h1]; rfl

end Cert.Lstm

end
-- ==== Proof.TileSpec.lean ====
/-
  The LSTM cell restricted to one tile of the [batch, hidden] plane, and why a tile's value is the whole cell's.

  The batch axis is cut into blocks of 512 rows and the hidden axis into blocks of 256 units. The entry of either
  result at batch row p = 512·i + r and hidden unit q = 256·j + s depends on
    · column p of the input, i.e. column r of the [2048, 512] slab of x over batch block i;
    · row p of the hidden state, i.e. row r of the [512, 2048] slab of h over batch block i;
    · the old cell state at (p, q), i.e. entry (r, s) of the [512, 256] tile of c;
    · row q of each weight, i.e. row s of the [256, 2048] slab of that weight over hidden block j;
    · the two biases of unit q; a tile sees them already added, as entry s of a [1, 256] row.
  So the cell computed from the slabs at (r, s) is the cell computed from the whole arrays at (p, q): every sum runs
  over the full contraction axis in both, term by term the same.
-/
import proofs.«105595_j75771813036713_2_alg».proof.Proof.Spec

open scoped BigOperators

noncomputable section

namespace Cert.Lstm

open Idealize.ShloMosaic Idealize.ShloMosaic.ValueIdx

/-- Indices of a slab of the input over one batch block: [input, 512]. -/
abbrev TXIdx := (⟨2, ![2048, 512]⟩ : Shape).Idx
/-- Indices of a slab of the hidden state over one batch block: [512, hidden]. -/
abbrev THIdx := (⟨2, ![512, 2048]⟩ : Shape).Idx
/-- Indices of a tile of a state array: [512, 256]. -/
abbrev TSIdx := (⟨2, ![512, 256]⟩ : Shape).Idx
/-- Indices of a slab of a weight over one hidden block: [256, input]. -/
abbrev TWIdx := (⟨2, ![256, 2048]⟩ : Shape).Idx
/-- Indices of a summed-bias row over one hidden block: [1, 256]. -/
abbrev TBIdx := (⟨2, ![1, 256]⟩ : Shape).Idx

/-- A gate's pre-activation at row `r`, unit `s` of a tile, from the slabs; the two biases arrive as one number. -/
def tilePre (X : TXIdx → EReal) (H : THIdx → EReal) (W U : TWIdx → EReal) (bb : TBIdx → EReal)
    (r : Fin 512) (s : Fin 256) : EReal :=
  (∑ k : Fin 2048, X (ix2 k r) * W (ix2 s k) + ∑ k : Fin 2048, H (ix2 r k) * U (ix2 s k)) + bb (ix2 (0 : Fin 1) s)

/-- The new cell state on a tile. -/
def tileCell (X : TXIdx → EReal) (H : THIdx → EReal) (C : TSIdx → EReal) (Wi Wf Wg Ui Uf Ug : TWIdx → EReal)
    (bi bf bg : TBIdx → EReal) (r : Fin 512) (s : Fin 256) : EReal :=
  Ideal.logistic (tilePre X H Wf Uf bf r s) * C (ix2 r s)
    + Ideal.logistic (tilePre X H Wi Ui bi r s) * Ideal.tanh (tilePre X H Wg Ug bg r s)

/-- The new hidden state on a tile. -/
def tileHidden (X : TXIdx → EReal) (H : THIdx → EReal) (C : TSIdx → EReal) (Wi Wf Wg Wo Ui Uf Ug Uo : TWIdx → EReal)
    (bi bf bg bo : TBIdx → EReal) (r : Fin 512) (s : Fin 256) : EReal :=
  Ideal.logistic (tilePre X H Wo Uo bo r s) * Ideal.tanh (tileCell X H C Wi Wf Wg Ui Uf Ug bi bf bg r s)

/-- `X` is the slab of `x` over batch block `i`. -/
def IsXSlab (i : Nat) (x : XIdx → EReal) (X : TXIdx → EReal) : Prop :=
  ∀ (k : Fin 2048) (r : Fin 512) (p : Fin 4096), p.val = i * 512 + r.val → X (ix2 k r) = x (ix2 k p)

/-- `H` is the slab of `h` over batch block `i`. -/
def IsHSlab (i : Nat) (h : SIdx → EReal) (H : THIdx → EReal) : Prop :=
  ∀ (r : Fin 512) (k : Fin 2048) (p : Fin 4096), p.val = i * 512 + r.val → H (ix2 r k) = h (ix2 p k)

/-- `C` is the tile of `c` at batch block `i`, hidden block `j`. -/
def IsTile (i j : Nat) (c : SIdx → EReal) (C : TSIdx → EReal) : Prop :=
  ∀ (r : Fin 512) (s : Fin 256) (p : Fin 4096) (q : Fin 2048), p.val = i * 512 + r.val → q.val = j * 256 + s.val →
    C (ix2 r s) = c (ix2 p q)

/-- `W` is the slab of the weight `w` over hidden block `j`. -/
def IsWSlab (j : Nat) (w : WIdx → EReal) (W : TWIdx → EReal) : Prop :=
  ∀ (s : Fin 256) (k : Fin 2048) (q : Fin 2048), q.val = j * 256 + s.val → W (ix2 s k) = w (ix2 q k)

/-- `bb` is the row of summed biases `b + b'` over hidden block `j`. -/
def IsBiasRow (j : Nat) (b b' : BIdx → EReal) (bb : TBIdx → EReal) : Prop :=
  ∀ (s : Fin 256) (q : Fin 2048), q.val = j * 256 + s.val →
    bb (ix2 (0 : Fin 1) s) = b (ix2 q (0 : Fin 1)) + b' (ix2 q (0 : Fin 1))

variable {i j : Nat} {x : XIdx → EReal} {h c : SIdx → EReal} {X : TXIdx → EReal} {H : THIdx → EReal} {C : TSIdx → EReal}

/-- A pre-activation computed from slabs is the one computed from the whole arrays. -/
theorem tilePre_eq {w u : WIdx → EReal} {b b' : BIdx → EReal} {W U : TWIdx → EReal} {bb : TBIdx → EReal}
    (hX : IsXSlab i x X) (hH : IsHSlab i h H) (hW : IsWSlab j w W) (hU : IsWSlab j u U) (hb : IsBiasRow j b b' bb)
    {r : Fin 512} {s : Fin 256} {p : Fin 4096} {q : Fin 2048} (hp : p.val = i * 512 + r.val)
    (hq : q.val = j * 256 + s.val) : tilePre X H W U bb r s = pre x h w u b b' p q := by
  have e1 : ∑ k : Fin 2048, X (ix2 k r) * W (ix2 s k) = ∑ k : Fin 2048, x (ix2 k p) * w (ix2 q k) :=
    Finset.sum_congr rfl fun k _ => by rw [hX k r p hp, hW s k q hq]
  have e2 : ∑ k : Fin 2048, H (ix2 r k) * U (ix2 s k) = ∑ k : Fin 2048, h (ix2 p k) * u (ix2 q k) :=
    Finset.sum_congr rfl fun k _ => by rw [hH r k p hp, hU s k q hq]
  unfold tilePre pre
  rw [e1, e2, hb s q hq]

variable {wi wf wg wo ui uf ug uo : WIdx → EReal} {bi bi' bf bf' bg bg' bo bo' : BIdx → EReal}
  {Wi Wf Wg Wo Ui Uf Ug Uo : TWIdx → EReal} {Bi Bf Bg Bo : TBIdx → EReal}

/-- The cell state computed on a tile is the whole cell's at the tile's place. -/
theorem tileCell_eq (hX : IsXSlab i x X) (hH : IsHSlab i h H) (hC : IsTile i j c C)
    (hWi : IsWSlab j wi Wi) (hWf : IsWSlab j wf Wf) (hWg : IsWSlab j wg Wg)
    (hUi : IsWSlab j ui Ui) (hUf : IsWSlab j uf Uf) (hUg : IsWSlab j ug Ug)
    (hbi : IsBiasRow j bi bi' Bi) (hbf : IsBiasRow j bf bf' Bf) (hbg : IsBiasRow j bg bg' Bg)
    {r : Fin 512} {s : Fin 256} {p : Fin 4096} {q : Fin 2048} (hp : p.val = i * 512 + r.val)
    (hq : q.val = j * 256 + s.val) :
    tileCell X H C Wi Wf Wg Ui Uf Ug Bi Bf Bg r s = cellNext x h c wi wf wg ui uf ug bi bi' bf bf' bg bg' p q := by
  unfold tileCell cellNext
  rw [tilePre_eq hX hH hWf hUf hbf hp hq, tilePre_eq hX hH hWi hUi hbi hp hq, tilePre_eq hX hH hWg hUg hbg hp hq,
    hC r s p q hp hq]

/-- The hidden state computed on a tile is the whole cell's at the tile's place. -/
theorem tileHidden_eq (hX : IsXSlab i x X) (hH : IsHSlab i h H) (hC : IsTile i j c C)
    (hWi : IsWSlab j wi Wi) (hWf : IsWSlab j wf Wf) (hWg : IsWSlab j wg Wg) (hWo : IsWSlab j wo Wo)
    (hUi : IsWSlab j ui Ui) (hUf : IsWSlab j uf Uf) (hUg : IsWSlab j ug Ug) (hUo : IsWSlab j uo Uo)
    (hbi : IsBiasRow j bi bi' Bi) (hbf : IsBiasRow j bf bf' Bf) (hbg : IsBiasRow j bg bg' Bg)
    (hbo : IsBiasRow j bo bo' Bo)
    {r : Fin 512} {s : Fin 256} {p : Fin 4096} {q : Fin 2048} (hp : p.val = i * 512 + r.val)
    (hq : q.val = j * 256 + s.val) :
    tileHidden X H C Wi Wf Wg Wo Ui Uf Ug Uo Bi Bf Bg Bo r s
      = hiddenNext x h c wi wf wg wo ui uf ug uo bi bi' bf bf' bg bg' bo bo' p q := by
  unfold tileHidden hiddenNext
  rw [tilePre_eq hX hH hWo hUo hbo hp hq, tileCell_eq hX hH hC hWi hWf hWg hUi hUf hUg hbi hbf hbg hp hq]

end Cert.Lstm

end
-- ==== Proof.Tile.lean ====
/-
  What the kernel body stores, read at one entry of the tile.

  The body loads a [2048, 512] slab of the input, a [512, 2048] slab of the hidden state, a [512, 256] tile of the cell
  state, eight [256, 2048] weight slabs and four [1, 256] rows of summed biases, and stores two [512, 256] tiles. Each
  gate is  act ((Xᵀ·Wᵀ + H·Uᵀ) + bias row repeated down the rows):  the first product contracts axis 0 of the input slab
  with axis 1 of the weight slab, the second axis 1 of the hidden slab with axis 1 of the weight slab, both into a zero
  accumulator, so at entry (r, s) they are the plain sums  ∑ k, X (k, r) · W (s, k)  and  ∑ k, H (r, k) · U (s, k).
  Read entry by entry, the stored cell tile is `tileCell` and the stored hidden tile is `tileHidden` of the loads.
-/
import proofs.«105595_j75771813036713_2_alg».proof.Proof.Gen.KernelIdeal.Skeleton
import proofs.«105595_j75771813036713_2_alg».proof.Proof.LibDotColRow
import proofs.«105595_j75771813036713_2_alg».proof.Proof.LibDotRowRow
import proofs.«105595_j75771813036713_2_alg».proof.Proof.TileSpec
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Tile

open Cert.KernelIdeal Cert.KernelIdeal.Gen Idealize.ShloMosaic Idealize.ShloMosaic.ValueIdx Cert.Lstm

/-- The input slab against a weight slab into the zero accumulator, at (r, s): down column r of the slab, along row s of
    the weight. -/
theorem xw_apply (X : FVec Ideal S2048x512 .bf16) (W : FVec Ideal S256x2048 .bf16) (r : Fin 512) (s : Fin 256) :
    matmul dot_S2048x512_S256x2048_S512x256_0_1_1_0_n_n none X W (constant (F := Ideal) S512x256 .f32 0x00000000#32) (ix2 r s)
      = ∑ k : Fin 2048, X (ix2 k r) * W (ix2 s k) :=
  Cert.ColRowDot.matmul_zero_apply dot_S2048x512_S256x2048_S512x256_0_1_1_0_n_n rfl rfl rfl rfl rfl rfl rfl rfl none X W r s

/-- The hidden slab against a weight slab into the zero accumulator, at (r, s): along row r of the slab, along row s of
    the weight. -/
theorem hu_apply (H : FVec Ideal S512x2048 .bf16) (U : FVec Ideal S256x2048 .bf16) (r : Fin 512) (s : Fin 256) :
    matmul dot_S512x2048_S256x2048_S512x256_1_1_0_0_n_n none H U (constant (F := Ideal) S512x256 .f32 0x00000000#32) (ix2 r s)
      = ∑ k : Fin 2048, H (ix2 r k) * U (ix2 s k) :=
  (Ideal.matmul_constant_zero_apply dot_S512x2048_S256x2048_S512x256_1_1_0_0_n_n none H U (ix2 r s)).trans
    (Cert.RowRowDot.sum_eq dot_S512x2048_S256x2048_S512x256_1_1_0_0_n_n rfl rfl rfl rfl rfl rfl rfl rfl H U r s)

/-- The bias row repeated down the 512 rows, at (r, s): the row's entry s. -/
theorem bias_apply (bb : FVec Ideal S1x256 .f32) (r : Fin 512) (s : Fin 256) :
    broadcastTo S512x256 bb broadcasts_S1x256_S512x256 (ix2 r s) = bb (ix2 (0 : Fin 1) s) :=
  broadcastTo_1b_ab_apply bb broadcasts_S1x256_S512x256 r s

/-- A gate's pre-activation as the body spells it, at (r, s). -/
theorem pre_apply (X : FVec Ideal S2048x512 .bf16) (H : FVec Ideal S512x2048 .bf16) (W U : FVec Ideal S256x2048 .bf16)
    (bb : FVec Ideal S1x256 .f32) (r : Fin 512) (s : Fin 256) :
    addf (addf (matmul dot_S2048x512_S256x2048_S512x256_0_1_1_0_n_n none X W (constant (F := Ideal) S512x256 .f32 0x00000000#32))
        (matmul dot_S512x2048_S256x2048_S512x256_1_1_0_0_n_n none H U (constant (F := Ideal) S512x256 .f32 0x00000000#32)))
      (broadcastTo S512x256 bb broadcasts_S1x256_S512x256) (ix2 r s) = tilePre X H W U bb r s := by
  rw [addf_apply, addf_apply, xw_apply, hu_apply, bias_apply]
  rfl

/-- The input gate's tile (a logistic gate) at (r, s). -/
theorem pay5_apply (v0 : Vec Ideal S2048x512 .bf16) (v2 : Vec Ideal S512x2048 .bf16) (v5 v8 : Vec Ideal S256x2048 .bf16)
    (v12 : Vec Ideal S1x256 .f32) (r : Fin 512) (s : Fin 256) :
    k0_pay5 v0 v2 v5 v8 v12 (ix2 r s) = Ideal.logistic (tilePre v0 v2 v5 v8 v12 r s) := by
  unfold k0_pay5 k0_pay3 k0_pay4
  simp only [shapeCast_self]
  exact congrArg Ideal.logistic (pre_apply v0 v2 v5 v8 v12 r s)

/-- The forget gate's tile (a logistic gate) at (r, s). -/
theorem pay6_apply (v0 : Vec Ideal S2048x512 .bf16) (v2 : Vec Ideal S512x2048 .bf16) (v17 v20 : Vec Ideal S256x2048 .bf16)
    (v24 : Vec Ideal S1x256 .f32) (r : Fin 512) (s : Fin 256) :
    k0_pay6 v0 v2 v17 v20 v24 (ix2 r s) = Ideal.logistic (tilePre v0 v2 v17 v20 v24 r s) := by
  unfold k0_pay6 k0_pay3 k0_pay4
  simp only [shapeCast_self]
  exact congrArg Ideal.logistic (pre_apply v0 v2 v17 v20 v24 r s)

/-- The candidate's input product at (r, s). -/
theorem pay7_apply (v0 : Vec Ideal S2048x512 .bf16) (v29 : Vec Ideal S256x2048 .bf16) (r : Fin 512) (s : Fin 256) :
    k0_pay7 v0 v29 (ix2 r s) = ∑ k : Fin 2048, v0 (ix2 k r) * v29 (ix2 s k) := by
  unfold k0_pay7 k0_pay3
  simp only [shapeCast_self]
  exact xw_apply v0 v29 r s

/-- THE CELL TILE the body stores, at (r, s): `tileCell` of the loaded slabs. -/
theorem cell_apply (x0 : FVec Ideal S2048x512 .bf16) (x1 : FVec Ideal S512x2048 .bf16) (x2 : FVec Ideal S512x256 .f32)
    (x3 x4 x5 x7 x8 x9 : FVec Ideal S256x2048 .bf16) (x11 x12 x13 : FVec Ideal S1x256 .f32) (r : Fin 512) (s : Fin 256) :
    k0_pay1 (F := Ideal) (k0_pay4 x1) x2 (k0_pay5 x0 x1 x3 x7 x11) (k0_pay6 x0 x1 x4 x8 x12) (k0_pay7 x0 x5) x9 x13 (ix2 r s)
      = tileCell x0 x1 x2 x3 x4 x5 x7 x8 x9 x11 x12 x13 r s := by
  have hg : addf (addf (k0_pay7 (F := Ideal) x0 x5)
        (matmul dot_S512x2048_S256x2048_S512x256_1_1_0_0_n_n none x1 x9 (constant (F := Ideal) S512x256 .f32 0x00000000#32)))
      (broadcastTo S512x256 x13 broadcasts_S1x256_S512x256) (ix2 r s) = tilePre x0 x1 x5 x9 x13 r s := by
    rw [addf_apply, addf_apply, pay7_apply, hu_apply, bias_apply]
    rfl
  unfold k0_pay1 k0_pay4 tileCell
  simp only [shapeCast_self]
  exact congrArg₂ (· + ·) (congrArg (· * x2 (ix2 r s)) (pay6_apply x0 x1 x4 x8 x12 r s))
    (congrArg₂ (· * ·) (pay5_apply x0 x1 x3 x7 x11 r s) (congrArg Ideal.tanh hg))

/-- THE HIDDEN TILE the body stores, at (r, s): `tileHidden` of the loaded slabs. -/
theorem hidden_apply (x0 : FVec Ideal S2048x512 .bf16) (x1 : FVec Ideal S512x2048 .bf16) (x2 : FVec Ideal S512x256 .f32)
    (x3 x4 x5 x6 x7 x8 x9 x10 : FVec Ideal S256x2048 .bf16) (x11 x12 x13 x14 : FVec Ideal S1x256 .f32)
    (r : Fin 512) (s : Fin 256) :
    k0_pay2 (F := Ideal) (k0_pay3 x0) (k0_pay4 x1) x2 (k0_pay5 x0 x1 x3 x7 x11) (k0_pay6 x0 x1 x4 x8 x12) (k0_pay7 x0 x5) x9 x13 x6
        x10 x14 (ix2 r s)
      = tileHidden x0 x1 x2 x3 x4 x5 x6 x7 x8 x9 x10 x11 x12 x13 x14 r s := by
  have hc := cell_apply x0 x1 x2 x3 x4 x5 x7 x8 x9 x11 x12 x13 r s
  unfold k0_pay4 at hc
  simp only [shapeCast_self] at hc
  unfold k0_pay2 k0_pay3 k0_pay4 tileHidden
  simp only [shapeCast_self]
  exact congrArg₂ (· * ·) (congrArg Ideal.logistic (pre_apply x0 x1 x6 x10 x14 r s)) (congrArg Ideal.tanh hc)

end Cert.KernelIdeal.Tile

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.Whole.lean ====
/-
  From tiles to arrays: after the kernel's run its two result arrays are the LSTM cell of the argument arrays.

  The grid has 8 × 8 points; point t handles batch block i(t) and hidden block j(t) (read off the result windows' index
  map). At a point each input window's block is a slab of an array the host prepared just before the launch:
    · the input, the hidden state and the eight weights are staged after a change of float format, which at the ideal
      values changes nothing, so their blocks are slabs of the arguments themselves;
    · each summed-bias row is  reshape (reshape b + reshape b')  from two [2048, 1] columns to a [1, 2048] row, whose entry
      (0, q) is  b (q, 0) + b' (q, 0);
    · the cell state is staged as it was passed.
  The body stores `tileCell` and `tileHidden` of those slabs (the body's payloads read at an entry), which by the
  tile-to-array law are the cell's values at (512·i + r, 256·j + s). The 64 result blocks tile the [4096, 2048] arrays,
  so each array ends holding the cell's function everywhere.
-/
import proofs.«105595_j75771813036713_2_alg».proof.Proof.Gen.KernelIdeal.Value
import proofs.«105595_j75771813036713_2_alg».proof.Proof.Tile
import proofs.«105595_j75771813036713_2_alg».proof.Proof.LibColumnLayout
import Idealize.ShloMosaic.Lib.ValueLayout
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.Lstm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The summed-bias row -/

/-- Two bias columns, each flattened, added, and laid out as one row. -/
def biasRow (b b' : FVec Ideal S2048x1 .f32) : FVec Ideal S1x2048 .f32 :=
  shapeCast S1x2048 (addf (shapeCast S2048 b shapeCasts_S2048x1_S2048) (shapeCast S2048 b' shapeCasts_S2048x1_S2048))
    shapeCasts_S2048_S1x2048

/-- Its entry (0, q) is the sum of the two columns' entries of unit q. -/
theorem biasRow_apply (b b' : FVec Ideal S2048x1 .f32) (q : Fin 2048) :
    biasRow b b' (ix2 (0 : Fin 1) q) = b (ix2 q (0 : Fin 1)) + b' (ix2 q (0 : Fin 1)) := by
  unfold biasRow
  rw [shapeCast_a_1a_apply, addf_apply, Cert.ColumnLayout.shapeCast_a1_a_apply, Cert.ColumnLayout.shapeCast_a1_a_apply]

/-! ## The staged arrays when the kernel is launched -/

theorem V_v0 (c : Dev nD) : (V m c main_v0 : S2048x4096.Idx → EReal) = m ((c : Thread nD τ).loc main_arg0) := by
  dsimp only [V, hostOps0]; after_results; rfl
theorem V_v1 (c : Dev nD) : (V m c main_v1 : S4096x2048.Idx → EReal) = m ((c : Thread nD τ).loc main_arg1) := by
  dsimp only [V, hostOps0]; after_results; rfl
theorem V_v2 (c : Dev nD) : (V m c main_v2 : S2048x2048.Idx → EReal) = m ((c : Thread nD τ).loc main_arg3) := by
  dsimp only [V, hostOps0]; after_results; rfl
theorem V_v3 (c : Dev nD) : (V m c main_v3 : S2048x2048.Idx → EReal) = m ((c : Thread nD τ).loc main_arg4) := by
  dsimp only [V, hostOps0]; after_results; rfl
theorem V_v4 (c : Dev nD) : (V m c main_v4 : S2048x2048.Idx → EReal) = m ((c : Thread nD τ).loc main_arg5) := by
  dsimp only [V, hostOps0]; after_results; rfl
theorem V_v5 (c : Dev nD) : (V m c main_v5 : S2048x2048.Idx → EReal) = m ((c : Thread nD τ).loc main_arg6) := by
  dsimp only [V, hostOps0]; after_results; rfl
theorem V_v6 (c : Dev nD) : (V m c main_v6 : S2048x2048.Idx → EReal) = m ((c : Thread nD τ).loc main_arg7) := by
  dsimp only [V, hostOps0]; after_results; rfl
theorem V_v7 (c : Dev nD) : (V m c main_v7 : S2048x2048.Idx → EReal) = m ((c : Thread nD τ).loc main_arg8) := by
  dsimp only [V, hostOps0]; after_results; rfl
theorem V_v8 (c : Dev nD) : (V m c main_v8 : S2048x2048.Idx → EReal) = m ((c : Thread nD τ).loc main_arg9) := by
  dsimp only [V, hostOps0]; after_results; rfl
theorem V_v9 (c : Dev nD) : (V m c main_v9 : S2048x2048.Idx → EReal) = m ((c : Thread nD τ).loc main_arg10) := by
  dsimp only [V, hostOps0]; after_results; rfl
set_option maxHeartbeats 2000000 in
theorem V_v13 (c : Dev nD) : (V m c main_v13 : S1x2048.Idx → EReal)
    = biasRow (m ((c : Thread nD τ).loc main_arg11)) (m ((c : Thread nD τ).loc main_arg12)) := by
  dsimp only [V, hostOps0]; after_results; rfl
set_option maxHeartbeats 2000000 in
theorem V_v17 (c : Dev nD) : (V m c main_v17 : S1x2048.Idx → EReal)
    = biasRow (m ((c : Thread nD τ).loc main_arg13)) (m ((c : Thread nD τ).loc main_arg14)) := by
  dsimp only [V, hostOps0]; after_results; rfl
set_option maxHeartbeats 2000000 in
theorem V_v21 (c : Dev nD) : (V m c main_v21 : S1x2048.Idx → EReal)
    = biasRow (m ((c : Thread nD τ).loc main_arg15)) (m ((c : Thread nD τ).loc main_arg16)) := by
  dsimp only [V, hostOps0]; after_results; rfl
set_option maxHeartbeats 2000000 in
theorem V_v25 (c : Dev nD) : (V m c main_v25 : S1x2048.Idx → EReal)
    = biasRow (m ((c : Thread nD τ).loc main_arg17)) (m ((c : Thread nD τ).loc main_arg18)) := by
  dsimp only [V, hostOps0]; after_results; rfl

/-! ## Where each window's block sits, decided over the 64 grid points -/

/-- The input's block is column block i of the result's; the hidden state's is row block i; the cell state's is the
    result's own block. -/
theorem idx_xhc : ∀ t : Fin cfg0.N,
    (win0_0.index t (0 : Fin 2) = 0 ∧ win0_0.index t (1 : Fin 2) = win0_16.index t (0 : Fin 2))
    ∧ (win0_1.index t (0 : Fin 2) = win0_16.index t (0 : Fin 2) ∧ win0_1.index t (1 : Fin 2) = 0)
    ∧ (win0_2.index t (0 : Fin 2) = win0_16.index t (0 : Fin 2) ∧ win0_2.index t (1 : Fin 2) = win0_16.index t (1 : Fin 2)) :=
  (by decide +kernel : ∀ t : Fin grid0.N, _)

/-- Every weight's block is row block j. -/
theorem idx_w : ∀ t : Fin cfg0.N,
    (win0_3.index t (0 : Fin 2) = win0_16.index t (1 : Fin 2) ∧ win0_3.index t (1 : Fin 2) = 0)
    ∧ (win0_4.index t (0 : Fin 2) = win0_16.index t (1 : Fin 2) ∧ win0_4.index t (1 : Fin 2) = 0)
    ∧ (win0_5.index t (0 : Fin 2) = win0_16.index t (1 : Fin 2) ∧ win0_5.index t (1 : Fin 2) = 0)
    ∧ (win0_6.index t (0 : Fin 2) = win0_16.index t (1 : Fin 2) ∧ win0_6.index t (1 : Fin 2) = 0)
    ∧ (win0_7.index t (0 : Fin 2) = win0_16.index t (1 : Fin 2) ∧ win0_7.index t (1 : Fin 2) = 0)
    ∧ (win0_8.index t (0 : Fin 2) = win0_16.index t (1 : Fin 2) ∧ win0_8.index t (1 : Fin 2) = 0)
    ∧ (win0_9.index t (0 : Fin 2) = win0_16.index t (1 : Fin 2) ∧ win0_9.index t (1 : Fin 2) = 0)
    ∧ (win0_10.index t (0 : Fin 2) = win0_16.index t (1 : Fin 2) ∧ win0_10.index t (1 : Fin 2) = 0) :=
  (by decide +kernel : ∀ t : Fin grid0.N, _)

/-- Every bias row's block is column block j. -/
theorem idx_b : ∀ t : Fin cfg0.N,
    (win0_11.index t (0 : Fin 2) = 0 ∧ win0_11.index t (1 : Fin 2) = win0_16.index t (1 : Fin 2))
    ∧ (win0_12.index t (0 : Fin 2) = 0 ∧ win0_12.index t (1 : Fin 2) = win0_16.index t (1 : Fin 2))
    ∧ (win0_13.index t (0 : Fin 2) = 0 ∧ win0_13.index t (1 : Fin 2) = win0_16.index t (1 : Fin 2))
    ∧ (win0_14.index t (0 : Fin 2) = 0 ∧ win0_14.index t (1 : Fin 2) = win0_16.index t (1 : Fin 2)) :=
  (by decide +kernel : ∀ t : Fin grid0.N, _)

/-- The two results move together, and their block indices stay below 8 on both axes. -/
theorem idx_out : ∀ t : Fin cfg0.N,
    win0_15.index t (0 : Fin 2) = win0_16.index t (0 : Fin 2) ∧ win0_15.index t (1 : Fin 2) = win0_16.index t (1 : Fin 2)
    ∧ win0_16.index t (0 : Fin 2) < 8 ∧ win0_16.index t (1 : Fin 2) < 8 :=
  (by decide +kernel : ∀ t : Fin grid0.N, _)

/-- Every block of the 8 × 8 tiling is some point's. -/
theorem idx_onto : ∀ (q0 : Fin 8) (q1 : Fin 8), ∃ t : Fin cfg0.N, win0_16.index t = ![q0.val, q1.val] :=
  (by decide +kernel : ∀ (q0 : Fin 8) (q1 : Fin 8), ∃ t : Fin grid0.N, win0_16.index t = ![q0.val, q1.val])

/-! ## Each input block is a slab of an argument -/

theorem slab_x (c : Dev nD) (t : Fin cfg0.N) :
    IsXSlab (win0_16.index t (0 : Fin 2)) (m ((c : Thread nD τ).loc main_arg0)) (iblk m c 0 t) := by
  intro k r p hp
  show V m c main_v0 (((cfg0.win 0).blk t).view.emb (ix2 k r)) = _
  rw [V_v0]
  refine congrArg _ (funext fun a => Fin.ext ?_)
  have e := (idx_xhc t).1
  match a with
  | ⟨0, _⟩ => show win0_0.index t (0 : Fin 2) * 2048 + 1 * k.val = k.val; rw [e.1]; omega
  | ⟨1, _⟩ => show win0_0.index t (1 : Fin 2) * 512 + 1 * r.val = p.val; rw [e.2, hp]; omega

theorem slab_h (c : Dev nD) (t : Fin cfg0.N) :
    IsHSlab (win0_16.index t (0 : Fin 2)) (m ((c : Thread nD τ).loc main_arg1)) (iblk m c 1 t) := by
  intro r k p hp
  show V m c main_v1 (((cfg0.win 1).blk t).view.emb (ix2 r k)) = _
  rw [V_v1]
  refine congrArg _ (funext fun a => Fin.ext ?_)
  have e := (idx_xhc t).2.1
  match a with
  | ⟨0, _⟩ => show win0_1.index t (0 : Fin 2) * 512 + 1 * r.val = p.val; rw [e.1, hp]; omega
  | ⟨1, _⟩ => show win0_1.index t (1 : Fin 2) * 2048 + 1 * k.val = k.val; rw [e.2]; omega

theorem tile_c (c : Dev nD) (t : Fin cfg0.N) :
    IsTile (win0_16.index t (0 : Fin 2)) (win0_16.index t (1 : Fin 2)) (m ((c : Thread nD τ).loc main_arg2)) (iblk m c 2 t) := by
  intro r s p q hp hq
  show V m c main_arg2 (((cfg0.win 2).blk t).view.emb (ix2 r s)) = _
  rw [V_main_arg2]
  refine congrArg _ (funext fun a => Fin.ext ?_)
  have e := (idx_xhc t).2.2
  match a with
  | ⟨0, _⟩ => show win0_2.index t (0 : Fin 2) * 512 + 1 * r.val = p.val; rw [e.1, hp]; omega
  | ⟨1, _⟩ => show win0_2.index t (1 : Fin 2) * 256 + 1 * s.val = q.val; rw [e.2, hq]; omega

theorem slab_w3 (c : Dev nD) (t : Fin cfg0.N) :
    IsWSlab (win0_16.index t (1 : Fin 2)) (m ((c : Thread nD τ).loc main_arg3)) (iblk m c 3 t) := by
  intro s k q hq
  show V m c main_v2 (((cfg0.win 3).blk t).view.emb (ix2 s k)) = _
  rw [V_v2]
  refine congrArg _ (funext fun a => Fin.ext ?_)
  have e := (idx_w t).1
  match a with
  | ⟨0, _⟩ => show win0_3.index t (0 : Fin 2) * 256 + 1 * s.val = q.val; rw [e.1, hq]; omega
  | ⟨1, _⟩ => show win0_3.index t (1 : Fin 2) * 2048 + 1 * k.val = k.val; rw [e.2]; omega
theorem slab_w4 (c : Dev nD) (t : Fin cfg0.N) :
    IsWSlab (win0_16.index t (1 : Fin 2)) (m ((c : Thread nD τ).loc main_arg4)) (iblk m c 4 t) := by
  intro s k q hq
  show V m c main_v3 (((cfg0.win 4).blk t).view.emb (ix2 s k)) = _
  rw [V_v3]
  refine congrArg _ (funext fun a => Fin.ext ?_)
  have e := (idx_w t).2.1
  match a with
  | ⟨0, _⟩ => show win0_4.index t (0 : Fin 2) * 256 + 1 * s.val = q.val; rw [e.1, hq]; omega
  | ⟨1, _⟩ => show win0_4.index t (1 : Fin 2) * 2048 + 1 * k.val = k.val; rw [e.2]; omega
theorem slab_w5 (c : Dev nD) (t : Fin cfg0.N) :
    IsWSlab (win0_16.index t (1 : Fin 2)) (m ((c : Thread nD τ).loc main_arg5)) (iblk m c 5 t) := by
  intro s k q hq
  show V m c main_v4 (((cfg0.win 5).blk t).view.emb (ix2 s k)) = _
  rw [V_v4]
  refine congrArg _ (funext fun a => Fin.ext ?_)
  have e := (idx_w t).2.2.1
  match a with
  | ⟨0, _⟩ => show win0_5.index t (0 : Fin 2) * 256 + 1 * s.val = q.val; rw [e.1, hq]; omega
  | ⟨1, _⟩ => show win0_5.index t (1 : Fin 2) * 2048 + 1 * k.val = k.val; rw [e.2]; omega
theorem slab_w6 (c : Dev nD) (t : Fin cfg0.N) :
    IsWSlab (win0_16.index t (1 : Fin 2)) (m ((c : Thread nD τ).loc main_arg6)) (iblk m c 6 t) := by
  intro s k q hq
  show V m c main_v5 (((cfg0.win 6).blk t).view.emb (ix2 s k)) = _
  rw [V_v5]
  refine congrArg _ (funext fun a => Fin.ext ?_)
  have e := (idx_w t).2.2.2.1
  match a with
  | ⟨0, _⟩ => show win0_6.index t (0 : Fin 2) * 256 + 1 * s.val = q.val; rw [e.1, hq]; omega
  | ⟨1, _⟩ => show win0_6.index t (1 : Fin 2) * 2048 + 1 * k.val = k.val; rw [e.2]; omega
theorem slab_w7 (c : Dev nD) (t : Fin cfg0.N) :
    IsWSlab (win0_16.index t (1 : Fin 2)) (m ((c : Thread nD τ).loc main_arg7)) (iblk m c 7 t) := by
  intro s k q hq
  show V m c main_v6 (((cfg0.win 7).blk t).view.emb (ix2 s k)) = _
  rw [V_v6]
  refine congrArg _ (funext fun a => Fin.ext ?_)
  have e := (idx_w t).2.2.2.2.1
  match a with
  | ⟨0, _⟩ => show win0_7.index t (0 : Fin 2) * 256 + 1 * s.val = q.val; rw [e.1, hq]; omega
  | ⟨1, _⟩ => show win0_7.index t (1 : Fin 2) * 2048 + 1 * k.val = k.val; rw [e.2]; omega
theorem slab_w8 (c : Dev nD) (t : Fin cfg0.N) :
    IsWSlab (win0_16.index t (1 : Fin 2)) (m ((c : Thread nD τ).loc main_arg8)) (iblk m c 8 t) := by
  intro s k q hq
  show V m c main_v7 (((cfg0.win 8).blk t).view.emb (ix2 s k)) = _
  rw [V_v7]
  refine congrArg _ (funext fun a => Fin.ext ?_)
  have e := (idx_w t).2.2.2.2.2.1
  match a with
  | ⟨0, _⟩ => show win0_8.index t (0 : Fin 2) * 256 + 1 * s.val = q.val; rw [e.1, hq]; omega
  | ⟨1, _⟩ => show win0_8.index t (1 : Fin 2) * 2048 + 1 * k.val = k.val; rw [e.2]; omega
theorem slab_w9 (c : Dev nD) (t : Fin cfg0.N) :
    IsWSlab (win0_16.index t (1 : Fin 2)) (m ((c : Thread nD τ).loc main_arg9)) (iblk m c 9 t) := by
  intro s k q hq
  show V m c main_v8 (((cfg0.win 9).blk t).view.emb (ix2 s k)) = _
  rw [V_v8]
  refine congrArg _ (funext fun a => Fin.ext ?_)
  have e := (idx_w t).2.2.2.2.2.2.1
  match a with
  | ⟨0, _⟩ => show win0_9.index t (0 : Fin 2) * 256 + 1 * s.val = q.val; rw [e.1, hq]; omega
  | ⟨1, _⟩ => show win0_9.index t (1 : Fin 2) * 2048 + 1 * k.val = k.val; rw [e.2]; omega
theorem slab_w10 (c : Dev nD) (t : Fin cfg0.N) :
    IsWSlab (win0_16.index t (1 : Fin 2)) (m ((c : Thread nD τ).loc main_arg10)) (iblk m c 10 t) := by
  intro s k q hq
  show V m c main_v9 (((cfg0.win 10).blk t).view.emb (ix2 s k)) = _
  rw [V_v9]
  refine congrArg _ (funext fun a => Fin.ext ?_)
  have e := (idx_w t).2.2.2.2.2.2.2
  match a with
  | ⟨0, _⟩ => show win0_10.index t (0 : Fin 2) * 256 + 1 * s.val = q.val; rw [e.1, hq]; omega
  | ⟨1, _⟩ => show win0_10.index t (1 : Fin 2) * 2048 + 1 * k.val = k.val; rw [e.2]; omega

theorem row_b11 (c : Dev nD) (t : Fin cfg0.N) :
    IsBiasRow (win0_16.index t (1 : Fin 2)) (m ((c : Thread nD τ).loc main_arg11)) (m ((c : Thread nD τ).loc main_arg12))
      (iblk m c 11 t) := by
  intro s q hq
  show V m c main_v13 (((cfg0.win 11).blk t).view.emb (ix2 (0 : Fin 1) s)) = _
  rw [V_v13]
  have e := (idx_b t).1
  have hi : ((cfg0.win 11).blk t).view.emb (ix2 (0 : Fin 1) s) = ix2 (0 : Fin 1) q := funext fun a => Fin.ext (by
    match a with
    | ⟨0, _⟩ => show win0_11.index t (0 : Fin 2) * 1 + 1 * 0 = 0; rw [e.1]
    | ⟨1, _⟩ => show win0_11.index t (1 : Fin 2) * 256 + 1 * s.val = q.val; rw [e.2, hq]; omega)
  rw [hi]
  exact biasRow_apply _ _ q
theorem row_b12 (c : Dev nD) (t : Fin cfg0.N) :
    IsBiasRow (win0_16.index t (1 : Fin 2)) (m ((c : Thread nD τ).loc main_arg13)) (m ((c : Thread nD τ).loc main_arg14))
      (iblk m c 12 t) := by
  intro s q hq
  show V m c main_v17 (((cfg0.win 12).blk t).view.emb (ix2 (0 : Fin 1) s)) = _
  rw [V_v17]
  have e := (idx_b t).2.1
  have hi : ((cfg0.win 12).blk t).view.emb (ix2 (0 : Fin 1) s) = ix2 (0 : Fin 1) q := funext fun a => Fin.ext (by
    match a with
    | ⟨0, _⟩ => show win0_12.index t (0 : Fin 2) * 1 + 1 * 0 = 0; rw [e.1]
    | ⟨1, _⟩ => show win0_12.index t (1 : Fin 2) * 256 + 1 * s.val = q.val; rw [e.2, hq]; omega)
  rw [hi]
  exact biasRow_apply _ _ q
theorem row_b13 (c : Dev nD) (t : Fin cfg0.N) :
    IsBiasRow (win0_16.index t (1 : Fin 2)) (m ((c : Thread nD τ).loc main_arg15)) (m ((c : Thread nD τ).loc main_arg16))
      (iblk m c 13 t) := by
  intro s q hq
  show V m c main_v21 (((cfg0.win 13).blk t).view.emb (ix2 (0 : Fin 1) s)) = _
  rw [V_v21]
  have e := (idx_b t).2.2.1
  have hi : ((cfg0.win 13).blk t).view.emb (ix2 (0 : Fin 1) s) = ix2 (0 : Fin 1) q := funext fun a => Fin.ext (by
    match a with
    | ⟨0, _⟩ => show win0_13.index t (0 : Fin 2) * 1 + 1 * 0 = 0; rw [e.1]
    | ⟨1, _⟩ => show win0_13.index t (1 : Fin 2) * 256 + 1 * s.val = q.val; rw [e.2, hq]; omega)
  rw [hi]
  exact biasRow_apply _ _ q
theorem row_b14 (c : Dev nD) (t : Fin cfg0.N) :
    IsBiasRow (win0_16.index t (1 : Fin 2)) (m ((c : Thread nD τ).loc main_arg17)) (m ((c : Thread nD τ).loc main_arg18))
      (iblk m c 14 t) := by
  intro s q hq
  show V m c main_v25 (((cfg0.win 14).blk t).view.emb (ix2 (0 : Fin 1) s)) = _
  rw [V_v25]
  have e := (idx_b t).2.2.2
  have hi : ((cfg0.win 14).blk t).view.emb (ix2 (0 : Fin 1) s) = ix2 (0 : Fin 1) q := funext fun a => Fin.ext (by
    match a with
    | ⟨0, _⟩ => show win0_14.index t (0 : Fin 2) * 1 + 1 * 0 = 0; rw [e.1]
    | ⟨1, _⟩ => show win0_14.index t (1 : Fin 2) * 256 + 1 * s.val = q.val; rw [e.2, hq]; omega)
  rw [hi]
  exact biasRow_apply _ _ q

/-! ## The two results as whole arrays -/

/-- The new cell state of core `c`'s arguments. -/
abbrev cellOf (c : Dev nD) : Buf (Elt Ideal) ((c : Thread nD τ).loc main_v26_1) :=
  cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- The new hidden state of core `c`'s arguments. -/
abbrev hiddenOf (c : Dev nD) : Buf (Elt Ideal) ((c : Thread nD τ).loc main_v26_0) :=
  hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- An entry of a result block at point `t` sits at row 512·i + r and column 256·j + s of the array. -/
theorem emb16_row (t : Fin cfg0.N) (r : Fin 512) (s : Fin 256) :
    ((((cfg0.win 16).blk t).view.emb (ix2 r s)) 0).val = win0_16.index t (0 : Fin 2) * 512 + r.val := by
  show win0_16.index t (0 : Fin 2) * 512 + 1 * r.val = _; omega
theorem emb16_col (t : Fin cfg0.N) (r : Fin 512) (s : Fin 256) :
    ((((cfg0.win 16).blk t).view.emb (ix2 r s)) 1).val = win0_16.index t (1 : Fin 2) * 256 + s.val := by
  show win0_16.index t (1 : Fin 2) * 256 + 1 * s.val = _; omega
theorem emb15_row (t : Fin cfg0.N) (r : Fin 512) (s : Fin 256) :
    ((((cfg0.win 15).blk t).view.emb (ix2 r s)) 0).val = win0_16.index t (0 : Fin 2) * 512 + r.val := by
  show win0_15.index t (0 : Fin 2) * 512 + 1 * r.val = _; rw [(idx_out t).1]; omega
theorem emb15_col (t : Fin cfg0.N) (r : Fin 512) (s : Fin 256) :
    ((((cfg0.win 15).blk t).view.emb (ix2 r s)) 1).val = win0_16.index t (1 : Fin 2) * 256 + s.val := by
  show win0_15.index t (1 : Fin 2) * 256 + 1 * s.val = _; rw [(idx_out t).2.1]; omega

/-- WHAT POINT `t` WRITES BACK to the cell-state result is block `t` of the cell's function. -/
theorem flushed16_eq (c : Dev nD) (t : Fin cfg0.N) :
    (dats m 0 c).flushed 16 t = ((cfg0.win 16).blk t).view.read (Elt Ideal) (cellOf m c) := by
  rw [Value.flushed16]
  unfold out0_16
  rw [View.canon_unit_zero hz]
  simp only [View.ld_unit_zero (S := S2048x512) hz, View.ld_unit_zero (S := S512x2048) hz, View.ld_unit_zero (S := S512x256) hz,
    View.ld_unit_zero (S := S256x2048) hz, View.ld_unit_zero (S := S1x256) hz]
  funext y
  obtain ⟨r, s, rfl⟩ : ∃ (r : Fin 512) (s : Fin 256), y = ix2 r s := ⟨y 0, y 1, eq_ix2 y⟩
  refine (Tile.cell_apply (iblk m c 0 t) (iblk m c 1 t) (iblk m c 2 t) (iblk m c 3 t) (iblk m c 4 t) (iblk m c 5 t) (iblk m c 7 t) (iblk m c 8 t) (iblk m c 9 t) (iblk m c 11 t) (iblk m c 12 t) (iblk m c 13 t) r s).trans ?_
  exact tileCell_eq (slab_x m c t) (slab_h m c t) (tile_c m c t) (slab_w3 m c t) (slab_w4 m c t) (slab_w5 m c t)
    (slab_w7 m c t) (slab_w8 m c t) (slab_w9 m c t) (row_b11 m c t) (row_b12 m c t) (row_b13 m c t)
    (emb16_row t r s) (emb16_col t r s)

/-- WHAT POINT `t` WRITES BACK to the hidden-state result is block `t` of the cell's function. -/
theorem flushed15_eq (c : Dev nD) (t : Fin cfg0.N) :
    (dats m 0 c).flushed 15 t = ((cfg0.win 15).blk t).view.read (Elt Ideal) (hiddenOf m c) := by
  rw [Value.flushed15]
  unfold out0_15
  rw [View.canon_unit_zero hz]
  simp only [View.ld_unit_zero (S := S2048x512) hz, View.ld_unit_zero (S := S512x2048) hz, View.ld_unit_zero (S := S512x256) hz,
    View.ld_unit_zero (S := S256x2048) hz, View.ld_unit_zero (S := S1x256) hz]
  funext y
  obtain ⟨r, s, rfl⟩ : ∃ (r : Fin 512) (s : Fin 256), y = ix2 r s := ⟨y 0, y 1, eq_ix2 y⟩
  refine (Tile.hidden_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r s).trans ?_
  exact tileHidden_eq (slab_x m c t) (slab_h m c t) (tile_c m c t) (slab_w3 m c t) (slab_w4 m c t) (slab_w5 m c t)
    (slab_w6 m c t) (slab_w7 m c t) (slab_w8 m c t) (slab_w9 m c t) (slab_w10 m c t) (row_b11 m c t) (row_b12 m c t)
    (row_b13 m c t) (row_b14 m c t) (emb15_row t r s) (emb15_col t r s)

/-! ## The result blocks tile the arrays -/

theorem mem_blk16 (t : Fin cfg0.N) (i : S4096x2048.Idx) :
    i ∈ ((cfg0.win 16).blk t).view.set ↔ ∀ a : Fin 2, win0_16.index t a * S512x256.size a ≤ (i a).val
      ∧ (i a).val < win0_16.index t a * S512x256.size a + S512x256.size a := by
  show i ∈ ((View.whole main_v26_1).slice (win0_16.rect t)).set ↔ _
  rw [View.set_slice_whole, Rect.mem_set_unit]
  exact Iff.rfl

theorem mem_blk15 (t : Fin cfg0.N) (i : S4096x2048.Idx) :
    i ∈ ((cfg0.win 15).blk t).view.set ↔ ∀ a : Fin 2, win0_15.index t a * S512x256.size a ≤ (i a).val
      ∧ (i a).val < win0_15.index t a * S512x256.size a + S512x256.size a := by
  show i ∈ ((View.whole main_v26_0).slice (win0_15.rect t)).set ↔ _
  rw [View.set_slice_whole, Rect.mem_set_unit]
  exact Iff.rfl

/-- Entry (p, q) lies in the block of the point with i = p / 512 and j = q / 256. -/
theorem cover16 (i : S4096x2048.Idx) :
    ∃ t : Fin cfg0.N, (cfg0.win 16).flush t = true ∧ i ∈ ((cfg0.win 16).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_16.index t (0 : Fin 2) = (i 0).val / 512 := congrFun ht 0
  have q1 : win0_16.index t (1 : Fin 2) = (i 1).val / 256 := congrFun ht 1
  refine ⟨t, flush0_16 t, ?_⟩
  rw [mem_blk16]
  intro a
  match a with
  | ⟨0, _⟩ =>
    show win0_16.index t (0 : Fin 2) * 512 ≤ (i 0).val ∧ (i 0).val < win0_16.index t (0 : Fin 2) * 512 + 512
    omega
  | ⟨1, _⟩ =>
    show win0_16.index t (1 : Fin 2) * 256 ≤ (i 1).val ∧ (i 1).val < win0_16.index t (1 : Fin 2) * 256 + 256
    omega

theorem cover15 (i : S4096x2048.Idx) :
    ∃ t : Fin cfg0.N, (cfg0.win 15).flush t = true ∧ i ∈ ((cfg0.win 15).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_16.index t (0 : Fin 2) = (i 0).val / 512 := congrFun ht 0
  have q1 : win0_16.index t (1 : Fin 2) = (i 1).val / 256 := congrFun ht 1
  obtain ⟨e0, e1, -⟩ := idx_out t
  refine ⟨t, flush0_15 t, ?_⟩
  rw [mem_blk15]
  intro a
  match a with
  | ⟨0, _⟩ =>
    show win0_15.index t (0 : Fin 2) * 512 ≤ (i 0).val ∧ (i 0).val < win0_15.index t (0 : Fin 2) * 512 + 512
    omega
  | ⟨1, _⟩ =>
    show win0_15.index t (1 : Fin 2) * 256 ≤ (i 1).val ∧ (i 1).val < win0_15.index t (1 : Fin 2) * 256 + 256
    omega

/-- THE CELL-STATE RESULT after the run. -/
theorem final16 (c : Dev nD) : (dats m 0 c).arrAt 16 cfg0.N = cellOf m c :=
  (dats m 0 c).arrAt_eq_of_cover 16 (cellOf m c) (fun t _ => flushed16_eq m c t) cover16

/-- THE HIDDEN-STATE RESULT after the run. -/
theorem final15 (c : Dev nD) : (dats m 0 c).arrAt 15 cfg0.N = hiddenOf m c :=
  (dats m 0 c).arrAt_eq_of_cover 15 (hiddenOf m c) (fun t _ => flushed15_eq m c t) cover15

/-! ## The run, read -/

/-- Every weakly fair execution of the kernel's program ends with the two results at the cell's function of the
    arguments and the arguments unchanged. -/
theorem run : θ_run defs (onTc (τ := τ) (main (F := Ideal))) ⟨m, fun _ => 0, ρ⟩ fun r => ∀ c : Dev nD,
      r.2.mem ((c : Thread nD τ).loc main_v26_0) = hiddenOf m c
      ∧ r.2.mem ((c : Thread nD τ).loc main_v26_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final15 m c), (h c).2.1.trans (final16 m c), (h c).2.2⟩)
    (Value.run_blocks m ρ)

end Cert.KernelIdeal.Whole

end
-- ==== Proof.RefValue.lean ====
/-
  The reference program's two results are the LSTM cell of its arguments.

  The reference works in the transposed layout [hidden, batch]: it transposes the hidden state and the cell state, forms
  for each gate  W·x + b + U·hᵀ + b'  (weight on the left of each product; first bias after the first product, second
  bias last), applies the logistic function spelt as  1 / (1 + e^(-z))  or the hyperbolic tangent, combines the gates,
  and transposes both results back to [batch, hidden]. Read at the entry (p, q) of a result — that is at (q, p) of the
  transposed arrays — each product is the plain sum over the contraction axis, each broadcast bias is the bias of unit
  q, the transposed states are the states at (p, q), so the pre-activation is the regrouped spelling of `pre`
  (`Cert.Lstm.pre_regrouped`) and the quotient spelling of the logistic function is the logistic function
  (`Cert.Lstm.logistic_spelt`, the f32 pattern 0x3F800000 being the number one).
-/
import proofs.«105595_j75771813036713_2_alg».proof.Proof.Gen.ReferenceIdeal.Read
import proofs.«105595_j75771813036713_2_alg».proof.Proof.Spec
import Idealize.ShloMosaic.Lib.IdealHost
import Idealize.ShloMosaic.Lib.ValueIdx

open scoped BigOperators

noncomputable section

namespace Cert.ReferenceIdeal.RefValue

open Cert.ReferenceIdeal Cert.ReferenceIdeal.Read Idealize.ShloMosaic Idealize.ShloMosaic.ValueIdx Cert.Lstm

/-- The reference's spelling of a pre-activation at (q, p) of the transposed layout, with the operand indices as the
    program computes them: once each index is identified with its coordinates, the regrouped spelling of `pre`. -/
theorem pre_form (x : XIdx → EReal) (h : SIdx → EReal) (w u : WIdx → EReal) (b b' : BIdx → EReal)
    (p : Fin 4096) (q : Fin 2048) (l1 : Fin 2048 → WIdx) (r1 : Fin 2048 → XIdx) (l2 : Fin 2048 → WIdx)
    (r2 : Fin 2048 → SIdx) (c1 c2 : BIdx)
    (hl1 : ∀ k, l1 k = ix2 q k) (hr1 : ∀ k, r1 k = ix2 k p) (hl2 : ∀ k, l2 k = ix2 q k) (hr2 : ∀ k, r2 k = ix2 p k)
    (hc1 : c1 = ix2 q (0 : Fin 1)) (hc2 : c2 = ix2 q (0 : Fin 1)) :
    ((∑ k : Fin 2048, w (l1 k) * x (r1 k) + b c1) + ∑ k : Fin 2048, u (l2 k) * h (r2 k)) + b' c2
      = pre x h w u b b' p q := by
  simp only [hl1, hr1, hl2, hr2, hc1, hc2]
  exact pre_regrouped x h w u b b' p q

variable (x0 : (⟨S2048x4096, .f32⟩ : BufTy).Contents (Elt Ideal)) (x1 x2 : (⟨S4096x2048, .f32⟩ : BufTy).Contents (Elt Ideal))
  (x3 x4 x5 x6 x7 x8 x9 x10 : (⟨S2048x2048, .f32⟩ : BufTy).Contents (Elt Ideal))
  (x11 x12 x13 x14 x15 x16 x17 x18 : (⟨S2048x1, .f32⟩ : BufTy).Contents (Elt Ideal))

/-- The input gate's pre-activation. -/
theorem pre_i (p : Fin 4096) (q : Fin 2048) :
    val_main_v8 (F := Ideal) x0 x1 x3 x7 x11 x12 (ix2 q p) = pre x0 x1 x3 x7 x11 x12 p q := by
  rw [val_main_v8_apply, val_main_v6_apply, val_main_v4_apply, val_main_v2_apply, val_main_v3_apply, val_main_v5_apply,
    val_main_v7_apply]
  simp only [val_main_v0_apply, Ideal.addf_def]
  exact pre_form x0 x1 x3 x7 x11 x12 p q _ _ _ _ _ _ (fun _ => eq_ix2 _) (fun _ => eq_ix2 _) (fun _ => eq_ix2 _)
    (fun _ => eq_ix2 _) (eq_ix2 _) (eq_ix2 _)

/-- The forget gate's pre-activation. -/
theorem pre_f (p : Fin 4096) (q : Fin 2048) :
    val_main_v21 (F := Ideal) x0 x1 x4 x8 x13 x14 (ix2 q p) = pre x0 x1 x4 x8 x13 x14 p q := by
  rw [val_main_v21_apply, val_main_v19_apply, val_main_v17_apply, val_main_v15_apply, val_main_v16_apply,
    val_main_v18_apply, val_main_v20_apply]
  simp only [val_main_v0_apply, Ideal.addf_def]
  exact pre_form x0 x1 x4 x8 x13 x14 p q _ _ _ _ _ _ (fun _ => eq_ix2 _) (fun _ => eq_ix2 _) (fun _ => eq_ix2 _)
    (fun _ => eq_ix2 _) (eq_ix2 _) (eq_ix2 _)

/-- The candidate's pre-activation. -/
theorem pre_g (p : Fin 4096) (q : Fin 2048) :
    val_main_v34 (F := Ideal) x0 x1 x5 x9 x15 x16 (ix2 q p) = pre x0 x1 x5 x9 x15 x16 p q := by
  rw [val_main_v34_apply, val_main_v32_apply, val_main_v30_apply, val_main_v28_apply, val_main_v29_apply,
    val_main_v31_apply, val_main_v33_apply]
  simp only [val_main_v0_apply, Ideal.addf_def]
  exact pre_form x0 x1 x5 x9 x15 x16 p q _ _ _ _ _ _ (fun _ => eq_ix2 _) (fun _ => eq_ix2 _) (fun _ => eq_ix2 _)
    (fun _ => eq_ix2 _) (eq_ix2 _) (eq_ix2 _)

/-- The output gate's pre-activation. -/
theorem pre_o (p : Fin 4096) (q : Fin 2048) :
    val_main_v42 (F := Ideal) x0 x1 x6 x10 x17 x18 (ix2 q p) = pre x0 x1 x6 x10 x17 x18 p q := by
  rw [val_main_v42_apply, val_main_v40_apply, val_main_v38_apply, val_main_v36_apply, val_main_v37_apply,
    val_main_v39_apply, val_main_v41_apply]
  simp only [val_main_v0_apply, Ideal.addf_def]
  exact pre_form x0 x1 x6 x10 x17 x18 p q _ _ _ _ _ _ (fun _ => eq_ix2 _) (fun _ => eq_ix2 _) (fun _ => eq_ix2 _)
    (fun _ => eq_ix2 _) (eq_ix2 _) (eq_ix2 _)

/-- The input gate: the quotient spelling of the logistic function of its pre-activation. -/
theorem gate_i (p : Fin 4096) (q : Fin 2048) :
    val_main_v14 (F := Ideal) x0 x1 x3 x7 x11 x12 (ix2 q p) = Ideal.logistic (pre x0 x1 x3 x7 x11 x12 p q) := by
  rw [val_main_v14_apply, val_main_v13_apply, val_main_cst_0_apply, val_main_v12_apply, val_main_v11_apply,
    val_main_cst_apply, val_main_v10_apply, val_main_v9_apply, pre_i]
  exact logistic_spelt _ Ideal.ofBits_one_f32 _

/-- The forget gate. -/
theorem gate_f (p : Fin 4096) (q : Fin 2048) :
    val_main_v27 (F := Ideal) x0 x1 x4 x8 x13 x14 (ix2 q p) = Ideal.logistic (pre x0 x1 x4 x8 x13 x14 p q) := by
  rw [val_main_v27_apply, val_main_v26_apply, val_main_cst_2_apply, val_main_v25_apply, val_main_v24_apply,
    val_main_cst_1_apply, val_main_v23_apply, val_main_v22_apply, pre_f]
  exact logistic_spelt _ Ideal.ofBits_one_f32 _

/-- The candidate: the hyperbolic tangent of its pre-activation. -/
theorem gate_g (p : Fin 4096) (q : Fin 2048) :
    val_main_v35 (F := Ideal) x0 x1 x5 x9 x15 x16 (ix2 q p) = Ideal.tanh (pre x0 x1 x5 x9 x15 x16 p q) := by
  rw [val_main_v35_apply, pre_g]
  rfl

/-- The output gate. -/
theorem gate_o (p : Fin 4096) (q : Fin 2048) :
    val_main_v48 (F := Ideal) x0 x1 x6 x10 x17 x18 (ix2 q p) = Ideal.logistic (pre x0 x1 x6 x10 x17 x18 p q) := by
  rw [val_main_v48_apply, val_main_v47_apply, val_main_cst_4_apply, val_main_v46_apply, val_main_v45_apply,
    val_main_cst_3_apply, val_main_v44_apply, val_main_v43_apply, pre_o]
  exact logistic_spelt _ Ideal.ofBits_one_f32 _

/-- The new cell state in the transposed layout, at (q, p). -/
theorem cell_t (p : Fin 4096) (q : Fin 2048) :
    val_main_v51 (F := Ideal) x0 x1 x2 x3 x4 x5 x7 x8 x9 x11 x12 x13 x14 x15 x16 (ix2 q p)
      = cellNext x0 x1 x2 x3 x4 x5 x7 x8 x9 x11 x12 x13 x14 x15 x16 p q := by
  rw [val_main_v51_apply, val_main_v49_apply, val_main_v50_apply, gate_f, gate_i, gate_g, val_main_v1_apply,
    show idx_main_v1 (ix2 q p) = ix2 p q from eq_ix2 _]
  rfl

/-- THE SECOND RESULT: the new cell state, as one [batch, hidden] array. -/
theorem cell_eq :
    val_main_v55 (F := Ideal) x0 x1 x2 x3 x4 x5 x7 x8 x9 x11 x12 x13 x14 x15 x16
      = cellArr x0 x1 x2 x3 x4 x5 x7 x8 x9 x11 x12 x13 x14 x15 x16 := by
  funext i
  obtain ⟨p, q, rfl⟩ : ∃ (p : Fin 4096) (q : Fin 2048), i = ix2 p q := ⟨i 0, i 1, eq_ix2 i⟩
  rw [val_main_v55_apply, show idx_main_v55 (ix2 p q) = ix2 q p from eq_ix2 _, cell_t]
  rfl

/-- THE FIRST RESULT: the new hidden state, as one [batch, hidden] array. -/
theorem hidden_eq :
    val_main_v54 (F := Ideal) x0 x1 x2 x3 x4 x5 x6 x7 x8 x9 x10 x11 x12 x13 x14 x15 x16 x17 x18
      = hiddenArr x0 x1 x2 x3 x4 x5 x6 x7 x8 x9 x10 x11 x12 x13 x14 x15 x16 x17 x18 := by
  funext i
  obtain ⟨p, q, rfl⟩ : ∃ (p : Fin 4096) (q : Fin 2048), i = ix2 p q := ⟨i 0, i 1, eq_ix2 i⟩
  rw [val_main_v54_apply, show idx_main_v54 (ix2 p q) = ix2 q p from eq_ix2 _, val_main_v53_apply, val_main_v52_apply,
    gate_o, cell_t]
  rfl

end Cert.ReferenceIdeal.RefValue

end
-- ==== Proof.lean ====
/-
  One LSTM cell step as a tiled kernel against the plain jnp cell: the two programs compute the same two arrays.

  The kernel casts the matrix operands to bf16, adds the two bias columns of each gate into one row, and runs an 8 × 8
  grid over (hidden block, batch block); each point forms, for every gate, (slab of x)ᵀ·(slab of W)ᵀ + (slab of h)·(slab
  of U)ᵀ + bias row, applies the logistic function or tanh, and writes a [512, 256] tile of the new hidden state and of
  the new cell state. The reference works on whole arrays in the transposed layout, adds each bias separately, spells
  the logistic function as 1 / (1 + e^(-z)), and transposes the results back.

  On the extended reals a change of float format is the identity, a matrix product into a zero accumulator and a
  dot_general are both the plain sum over the contraction axis, the logistic function IS that quotient, and the two bias
  groupings differ only by commutativity and associativity of + and · — which hold at the infinities too, so the
  agreement needs nothing of the inputs' finiteness. Entry by entry both programs therefore compute `Cert.Lstm.hiddenArr`
  and `Cert.Lstm.cellArr` of the arguments:
    · the reference, read one operation at a time at an index (Proof/RefValue.lean);
    · the kernel, whose stored tiles are the cell on slabs (Proof/Tile.lean), the slabs being blocks of the arguments and
      the 64 tiles covering the arrays (Proof/Whole.lean, over Proof/TileSpec.lean's tile-to-array law).
  The three frames are the programs' runs with the results forgotten; the idealization rewrote nothing.
-/
import proofs.«105595_j75771813036713_2_alg».proof.Defs
import proofs.«105595_j75771813036713_2_alg».proof.Proof.Gen.Kernel
import proofs.«105595_j75771813036713_2_alg».proof.Proof.Gen.Kernel.Skeleton
import proofs.«105595_j75771813036713_2_alg».proof.Proof.Gen.Kernel.Launch
import proofs.«105595_j75771813036713_2_alg».proof.Proof.Gen.Kernel.Points
import proofs.«105595_j75771813036713_2_alg».proof.Proof.Gen.Kernel.Frame
import proofs.«105595_j75771813036713_2_alg».proof.Proof.Gen.KernelIdeal
import proofs.«105595_j75771813036713_2_alg».proof.Proof.Gen.KernelIdeal.Skeleton
import proofs.«105595_j75771813036713_2_alg».proof.Proof.Gen.KernelIdeal.Launch
import proofs.«105595_j75771813036713_2_alg».proof.Proof.Gen.KernelIdeal.Points
import proofs.«105595_j75771813036713_2_alg».proof.Proof.Gen.KernelIdeal.Frame
import proofs.«105595_j75771813036713_2_alg».proof.Proof.Gen.ReferenceIdeal
import proofs.«105595_j75771813036713_2_alg».proof.Proof.Gen.KernelIdeal.Value
import proofs.«105595_j75771813036713_2_alg».proof.Proof.Gen.ReferenceIdeal.Run
import proofs.«105595_j75771813036713_2_alg».proof.Proof.Gen.ReferenceIdeal.Read
import proofs.«105595_j75771813036713_2_alg».proof.Proof.Gen.Pre_finite_inputs
import proofs.«105595_j75771813036713_2_alg».proof.Proof.Whole
import proofs.«105595_j75771813036713_2_alg».proof.Proof.RefValue
import Idealize.ShloMosaic.Adequacy
import Idealize.ShloMosaic.Init

noncomputable section

namespace Cert.Proof

open Idealize.ShloMosaic Idealize.ShloMosaic.TcCoe Idealize.SL.Sem

/-- The kernel's program runs and leaves its arguments as they were. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference's run with its two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the new hidden state and the new cell state of the (shared) arguments. -/
theorem algebraic : Cert.algebraic_KernelIdeal_ReferenceIdeal := by
  intro m ρ m' ρ' _ hagree
  refine ⟨fun c => Cert.KernelIdeal.Whole.hiddenOf m c, fun c => Cert.KernelIdeal.Whole.cellOf m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · have ha := hagree c
    rw [Cert.ReferenceIdeal.Read.val_main_v54_eq, Cert.ReferenceIdeal.RefValue.hidden_eq,
      ha.1, ha.2.1, ha.2.2.1, ha.2.2.2.1, ha.2.2.2.2.1, ha.2.2.2.2.2.1, ha.2.2.2.2.2.2.1, ha.2.2.2.2.2.2.2.1, ha.2.2.2.2.2.2.2.2.1, ha.2.2.2.2.2.2.2.2.2.1, ha.2.2.2.2.2.2.2.2.2.2.1, ha.2.2.2.2.2.2.2.2.2.2.2.1, ha.2.2.2.2.2.2.2.2.2.2.2.2.1, ha.2.2.2.2.2.2.2.2.2.2.2.2.2.1, ha.2.2.2.2.2.2.2.2.2.2.2.2.2.2.1, ha.2.2.2.2.2.2.2.2.2.2.2.2.2.2.2.1, ha.2.2.2.2.2.2.2.2.2.2.2.2.2.2.2.2.1, ha.2.2.2.2.2.2.2.2.2.2.2.2.2.2.2.2.2.1, ha.2.2.2.2.2.2.2.2.2.2.2.2.2.2.2.2.2.2]
  · have ha := hagree c
    rw [Cert.ReferenceIdeal.Read.val_main_v55_eq, Cert.ReferenceIdeal.RefValue.cell_eq,
      ha.1, ha.2.1, ha.2.2.1, ha.2.2.2.1, ha.2.2.2.2.1, ha.2.2.2.2.2.1, ha.2.2.2.2.2.2.2.1, ha.2.2.2.2.2.2.2.2.1, ha.2.2.2.2.2.2.2.2.2.1, ha.2.2.2.2.2.2.2.2.2.2.2.1, ha.2.2.2.2.2.2.2.2.2.2.2.2.1, ha.2.2.2.2.2.2.2.2.2.2.2.2.2.1, ha.2.2.2.2.2.2.2.2.2.2.2.2.2.2.1, ha.2.2.2.2.2.2.2.2.2.2.2.2.2.2.2.1, ha.2.2.2.2.2.2.2.2.2.2.2.2.2.2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
